-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) (main_arg1 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  let main_v4 : FVec F S32x1x1024x1024 .f32 := Host.absf main_arg1
  let main_cst_0 : FVec F S_ .f32 := constant S_ .f32 0x7F800000#32
  let main_v5 : FVec F S32x1x1024x1024 .f32 := broadcastInDim S32x1x1024x1024 ![] bcast_S_S32x1x1024x1024 main_cst_0
  let main_v6 : IVec S32x1x1024x1024 1 := cmpf .olt main_v4 main_v5
  let main_c_1 : IVec S_ 1 := constantI S_ 1 1#1
  let main_v7 : IVec S_ 1 := (fun x v => Host.reduce IntOp.andi x v reducesTo_S32x1x1024x1024_S_d0_1_2_3 h_S_) main_v6 main_c_1
  let main_v8 : IVec S_ 1 := andi main_v3 main_v7
  main_v8
-- ==== Kernel.lean ====
abbrev S32x1x1024x1024 : Shape := ⟨4, ![32, 1, 1024, 1024]⟩
abbrev S32x1024x1024 : Shape := ⟨3, ![32, 1024, 1024]⟩
abbrev S1x1 : Shape := ⟨2, ![1, 1]⟩
abbrev S32x1 : Shape := ⟨2, ![32, 1]⟩
abbrev S32x32x1024 : Shape := ⟨3, ![32, 32, 1024]⟩
abbrev S32x32 : Shape := ⟨2, ![32, 32]⟩
abbrev S32x32x1 : Shape := ⟨3, ![32, 32, 1]⟩
abbrev S32x1x1 : Shape := ⟨3, ![32, 1, 1]⟩
abbrev S_ : Shape := ⟨0, ![]⟩
abbrev S32 : Shape := ⟨1, ![32]⟩

abbrev nBuf : Space → Nat
  | .hbm => 34
  | .vmem => 8
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S32x1024x1024, .f32⟩
  | .hbm, ⟨3, _⟩ => ⟨S32x1024x1024, .f32⟩
  | .hbm, ⟨4, _⟩ => ⟨S1x1, .f32⟩
  | .hbm, ⟨5, _⟩ => ⟨S32x1, .f32⟩
  | .hbm, ⟨6, _⟩ => ⟨S32x1, .f32⟩
  | .hbm, ⟨7, _⟩ => ⟨S32x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S32x32x1024, .f32⟩
  | .local _ .vmem, ⟨1, _⟩ => ⟨S32x32x1024, .f32⟩
  | .local _ .vmem, ⟨2, _⟩ => ⟨S32x32x1024, .f32⟩
  | .local _ .vmem, ⟨3, _⟩ => ⟨S32x32x1024, .f32⟩
  | .local _ .vmem, ⟨4, _⟩ => ⟨S1x1, .f32⟩
  | .local _ .vmem, ⟨5, _⟩ => ⟨S32x1, .f32⟩
  | .local _ .vmem, ⟨6, _⟩ => ⟨S32x1, .f32⟩
  | .local _ .vmem, ⟨7, _⟩ => ⟨S32x1, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S32x1x1024x1024_S32x1024x1024 : S32x1x1024x1024.ShapeCasts S32x1024x1024
  inb_S1x1_S1x1_0_0 : ∀ a, (![0, 0] : Fin 2 → Nat) a + S1x1.size a ≤ S1x1.size a
  h_S1x1 : 0 < S1x1.numel
  inb_S32x1_S32x1_0_0 : ∀ a, (![0, 0] : Fin 2 → Nat) a + S32x1.size a ≤ S32x1.size a
  h_S32x1 : 0 < S32x1.numel
  inb_S32x32x1024_S32x32x1024_0_0_0 : ∀ a, (![0, 0, 0] : Fin 3 → Nat) a + S32x32x1024.size a ≤ S32x32x1024.size a
  h_S32x32x1024 : 0 < S32x32x1024.numel
  shapeCasts_S32x32x1024_S32x32x1024 : S32x32x1024.ShapeCasts S32x32x1024
  reduces_S32x32x1024_S32x32 : S32x32x1024.Reduces [2] S32x32
  shapeCasts_S32x32_S32x32x1 : S32x32.ShapeCasts S32x32x1
  reduces_S32x32x1_S32x1 : S32x32x1.Reduces [1] S32x1
  shapeCasts_S32x1_S32x1x1 : S32x1.ShapeCasts S32x1x1
  reduces_S32x1x1_S1x1 : S32x1x1.Reduces [0] S1x1
  shapeCasts_S1x1_S1x1 : S1x1.ShapeCasts S1x1
  shapeCasts_S32x1_S32x1 : S32x1.ShapeCasts S32x1
  shapeCasts_S1x1_S_ : S1x1.ShapeCasts S_
  shapeCasts_S32x1_S32 : S32x1.ShapeCasts S32
  bcast_S_S32 : S_.BroadcastsInDim S32 (![] : Fin 0 → Fin S32.rank)
  reducesTo_S32_S_d0 : S32.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x1024.size a ≤ S32x1024x1024.size a
  hwx0_0 : ∀ i : grid0.Coords, EltTy.bits .f32 = 32 ∨ (Rect.block (s := S32x1024x1024) S32x32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32x1024.size a ≤ S32x1024x1024.size a
  hwx0_1 : ∀ i : grid0.Coords, EltTy.bits .f32 = 32 ∨ (Rect.block (s := S32x1024x1024) S32x32x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S32x1.size a
  hwx0_5 : ∀ i : grid0.Coords, EltTy.bits .f32 = 32 ∨ (Rect.block (s := S32x1) S32x1.size (cc0_transform_5 i) (hinb0_5 i)).WholeWords (EltTy.packing .f32)

variable [Facts₀]

abbrev win0_0 : Pipeline.Window sig grid0 :=
  Pipeline.Window.ofSpec (Memref.whole main_v0) S32x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S32x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S32x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_3) S32x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x1x1024x1024 : Shape := ⟨4, ![32, 1, 1024, 1024]⟩
abbrev S_ : Shape := ⟨0, ![]⟩
abbrev S32x1048576 : Shape := ⟨2, ![32, 1048576]⟩
abbrev S32 : Shape := ⟨1, ![32]⟩
abbrev S32x1024x1024 : Shape := ⟨3, ![32, 1024, 1024]⟩

abbrev nBuf : Space → Nat
  | .hbm => 65
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S_, .f32⟩
  | .hbm, ⟨3, _⟩ => ⟨S32x1x1024x1024, .f32⟩
  | .hbm, ⟨4, _⟩ => ⟨S32x1x1024x1024, .f32⟩
  | .hbm, ⟨5, _⟩ => ⟨S32x1x1024x1024, .f32⟩
  | .hbm, ⟨6, _⟩ => ⟨S32x1x1024x1024, .f32⟩
  | .hbm, ⟨7, _⟩ => ⟨S32x1x1024x1024, .f32⟩
  | .hbm, ⟨8, _⟩ => ⟨S32x1x1024x1024, .f32⟩
  | .hbm, ⟨9, _⟩ => ⟨S32x1x1024x1024, .f32⟩
  | .hbm, ⟨10, _⟩ => ⟨S32x1x1024x1024, .f32⟩
  | .hbm, ⟨11, _⟩ => ⟨S32x1x1024x1024, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S32x1x1024x1024, .f32⟩
  | .hbm, ⟨17, _⟩ => ⟨S32x1x1024x1024, .f32⟩
  | .hbm, ⟨18, _⟩ => ⟨S_, .f32⟩
  | .hbm, ⟨19, _⟩ => ⟨S32x1x1024x1024, .f32⟩
  | .hbm, ⟨20, _⟩ => ⟨S32x1x1024x1024, .f32⟩
  | .hbm, ⟨21, _⟩ => ⟨S_, .f32⟩
  | .hbm, ⟨22, _⟩ => ⟨S32x1x1024x1024, .f32⟩
  | .hbm, ⟨23, _⟩ => ⟨S32x1x1024x1024, .f32⟩
  | .hbm, ⟨24, _⟩ => ⟨S32x1048576, .f32⟩
  | .hbm, ⟨25, _⟩ => ⟨S32x1048576, .f32⟩
  | .hbm, ⟨26, _⟩ => ⟨S32x1048576, .f32⟩
  | .hbm, ⟨27, _⟩ => ⟨S_, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S32x1024x1024, .f32⟩
  | .hbm, ⟨51, _⟩ => ⟨S_, .f32⟩
  | .hbm, ⟨52, _⟩ => ⟨S32x1024x1024, .f32⟩
  | .hbm, ⟨53, _⟩ => ⟨S32x1024x1024, .f32⟩
  | .hbm, ⟨54, _⟩ => ⟨S_, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_cst_9 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_10 : Ref sig .tc := ⟨.hbm, 44, rfl⟩
abbrev main_v31 : Ref sig .tc := ⟨.hbm, 45, rfl⟩
abbrev main_cst_11 : Ref sig .tc := ⟨.hbm, 46, rfl⟩
abbrev main_v32 : Ref sig .tc := ⟨.hbm, 47, rfl⟩
abbrev main_cst_12 : Ref sig .tc := ⟨.hbm, 48, rfl⟩
abbrev main_v33 : Ref sig .tc := ⟨.hbm, 49, rfl⟩
abbrev main_v34 : Ref sig .tc := ⟨.hbm, 50, rfl⟩
abbrev main_cst_13 : Ref sig .tc := ⟨.hbm, 51, rfl⟩
abbrev main_v35 : Ref sig .tc := ⟨.hbm, 52, rfl⟩
abbrev main_v36 : Ref sig .tc := ⟨.hbm, 53, rfl⟩
abbrev main_cst_14 : Ref sig .tc := ⟨.hbm, 54, rfl⟩
abbrev main_v37 : Ref sig .tc := ⟨.hbm, 55, rfl⟩
abbrev main_cst_15 : Ref sig .tc := ⟨.hbm, 56, rfl⟩
abbrev main_v38 : Ref sig .tc := ⟨.hbm, 57, rfl⟩
abbrev main_v39 : Ref sig .tc := ⟨.hbm, 58, rfl⟩
abbrev main_cst_16 : Ref sig .tc := ⟨.hbm, 59, rfl⟩
abbrev main_v40 : Ref sig .tc := ⟨.hbm, 60, rfl⟩
abbrev main_cst_17 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel
  shapeCasts_S32x1x1024x1024_S32x1048576 : S32x1x1024x1024.ShapeCasts S32x1048576
  reducesTo_S32x1048576_S32_d1 : S32x1048576.ReducesTo [1] S32
  bcast_S_S32 : S_.BroadcastsInDim S32 (![] : Fin 0 → Fin S32.rank)
  reducesTo_S32_S_d0 : S32.ReducesTo [0] S_
  shapeCasts_S32x1x1024x1024_S32x1024x1024 : S32x1x1024x1024.ShapeCasts S32x1024x1024
  bcast_S_S32x1024x1024 : S_.BroadcastsInDim S32x1024x1024 (![] : Fin 0 → Fin S32x1024x1024.rank)
  reducesTo_S32x1024x1024_S32_d1_2 : S32x1024x1024.ReducesTo [1, 2] S32

variable [Facts₀]

class Facts : Prop extends Facts₀ where

variable [Facts]
-- ==== Proof.LibSumIndex.lean ====
/-
  Finite sums re-indexed, in any additive commutative monoid (so on the extended reals with no finiteness):

  * `sum_blocks`: a sum over `Fin N` with `N = J * B` is the double sum over its `J` consecutive blocks of length
    `B`, position `a * B + b` — what joins a sum over one long axis (a flattened `x.reshape(n, -1)`, or all the rows of
    an array) to the same sum taken block by block (a grid walking the axis, or the axis split in two);
  * `sum_idx4`, `sum_idx1`: a sum over the index set of a rank-4 (rank-1) shape is the iterated sum over its
    coordinates, with the index rebuilt by `ix4` (`ix1`) — the companions of the library's `sum_idx2`.
-/
import Idealize.ShloMosaic.Lib.ValueIdx

noncomputable section

open scoped BigOperators

namespace Cert.LibSumIndex

open Idealize.ShloMosaic Idealize.ShloMosaic.ValueIdx

/-- A sum over the first `J * B` indices is the sum over its `J` consecutive blocks of length `B`. -/
theorem sum_blocks {M : Type*} [AddCommMonoid M] (J B N : ℕ) (hN : J * B = N) (f : Fin N → M) :
    ∑ k, f k = ∑ a : Fin J, ∑ b : Fin B, f ⟨a.val * B + b.val, by
      subst hN
      calc a.val * B + b.val < a.val * B + B := Nat.add_lt_add_left b.isLt _
        _ = (a.val + 1) * B := (Nat.succ_mul _ _).symm
        _ ≤ J * B := Nat.mul_le_mul_right _ a.isLt⟩ := by
  subst hN
  rw [← Equiv.sum_comp finProdFinEquiv f, Fintype.sum_prod_type]
  refine Finset.sum_congr rfl fun a _ => Finset.sum_congr rfl fun b _ => congrArg f (Fin.ext ?_)
  show b.val + B * a.val = a.val * B + b.val
  rw [Nat.mul_comm, Nat.add_comm]

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    ⟨fun i => i 0, fun a => ix1 a, fun i => (eq_ix1 i).symm, fun _ => rfl⟩
  rw [← Equiv.sum_comp e.symm f]
  rfl

end Cert.LibSumIndex

end
-- ==== Proof.LossSpec.lean ====
/-
  The loss both programs compute, as one formula over the extended reals.

  For logits x and targets t of shape [32, 1, 1024, 1024]:

    loss = (Σ_{b,r,w} bce(x, t)) / 2^25  +  (1 − (Σ_b dice_b) / 32)
    bce(x, t) = max(x, 0) − x·t + log(1 + e^{−|x|})
    dice_b    = (2 · Σ_{r,w} σ(x)·t + ε) / ((Σ_{r,w} σ(x) + Σ_{r,w} t) + ε),   σ(x) = 1 / (1 + e^{−x})

  Every sum is a finite sum in the additive commutative monoid of the extended reals, so its order and grouping
  do not matter: that is all the two programs differ by (whole-array sums against sums accumulated block of rows by
  block of rows). The float constants stay as their bit patterns; only 0, 1, 32 and 2^20 are evaluated, the first two
  to cancel, the last two to know they are not zero.
-/
import proofs.«148591_j77292231459116_1_alg».proof.Proof.LibSumIndex
import Idealize.ShloMosaic.Lib.ValueIdx
import Idealize.ShloMosaic.PureOps.Ideal.Laws
import Idealize.ShloMosaic.PureOps.IdealRules

noncomputable section

open scoped BigOperators

namespace Cert.Loss

open Idealize.ShloMosaic Idealize.ShloMosaic.ValueIdx

/-! ## Constants -/

/-- The pattern of `1.0` denotes 1. -/
theorem ofBits_one : Ideal.ofBits .f32 0x3F800000#32 = 1 := IdealRules.sign_bit.ideal_onePat .f32

/-- The pattern of `32.0` denotes the real 32. -/
theorem ofBits_32 : Ideal.ofBits .f32 0x42000000#32 = ((32 : ℝ) : EReal) := by
  simp [Ideal.ofBits, Ideal.ieee, -EReal.coe_mul]; norm_num

/-- The pattern of `1048576.0` denotes the real 2^20. -/
theorem ofBits_2p20 : Ideal.ofBits .f32 0x49800000#32 = ((1048576 : ℝ) : EReal) := by
  simp [Ideal.ofBits, Ideal.ieee, -EReal.coe_mul]; norm_num

/-- Zero divided by a nonzero real is zero. -/
theorem div_zero_coe {y : ℝ} (h : y ≠ 0) : Ideal.div 0 (y : EReal) = 0 := by
  rw [Ideal.div_coe h, zero_mul]

/-! ## Sums re-indexed: by blocks of an axis, and by coordinates (Proof/LibSumIndex.lean) -/

export Cert.LibSumIndex (sum_blocks sum_idx4 sum_idx1)

/-! ## The loss -/

/-- The arrays' index set: [32, 1, 1024, 1024]. -/
abbrev Arr : Type := (⟨4, ![32, 1, 1024, 1024]⟩ : Shape).Idx → EReal

/-- One element's cross-entropy term: max(x, 0) − x·t + log(1 + e^{−|x|}). -/
def bceTerm (x t : EReal) : EReal := (max x 0 - x * t) + Ideal.log1p (Ideal.exp (-(max x (-x))))

/-- The sum of the cross-entropy terms over every element. -/
def bceSum (X T : Arr) : EReal :=
  ∑ b : Fin 32, ∑ r : Fin 1024, ∑ w : Fin 1024, bceTerm (X (ix4 b 0 r w)) (T (ix4 b 0 r w))

/-- Sample `b`'s intersection Σ σ(x)·t. -/
def interSum (X T : Arr) (b : Fin 32) : EReal :=
  ∑ r : Fin 1024, ∑ w : Fin 1024, Ideal.logistic (X (ix4 b 0 r w)) * T (ix4 b 0 r w)

/-- Sample `b`'s Σ σ(x). -/
def probSum (X : Arr) (b : Fin 32) : EReal := ∑ r : Fin 1024, ∑ w : Fin 1024, Ideal.logistic (X (ix4 b 0 r w))

/-- Sample `b`'s Σ t. -/
def targSum (T : Arr) (b : Fin 32) : EReal := ∑ r : Fin 1024, ∑ w : Fin 1024, T (ix4 b 0 r w)

/-- Sample `b`'s Dice coefficient (2·Σσ(x)t + ε) / ((Σσ(x) + Σt) + ε), ε the float nearest 1e-5. -/
def diceCoef (X T : Arr) (b : Fin 32) : EReal :=
  Ideal.div (Ideal.ofBits .f32 0x40000000#32 * interSum X T b + Ideal.ofBits .f32 0x3727C5AC#32)
    ((probSum X b + targSum T b) + Ideal.ofBits .f32 0x3727C5AC#32)

/-- The loss: mean cross-entropy plus one minus the mean Dice coefficient. -/
def loss (X T : Arr) : EReal :=
  Ideal.div (bceSum X T) (Ideal.ofBits .f32 0x4C000000#32)
    + (Ideal.ofBits .f32 0x3F800000#32 - Ideal.div (∑ b : Fin 32, diceCoef X T b) (Ideal.ofBits .f32 0x42000000#32))

end Cert.Loss

end
-- ==== Proof.Reference.lean ====
/-
  What the reference computes: the loss of Proof/LossSpec.lean.

  Its program sums the cross-entropy terms over the whole [32, 1, 1024, 1024] array at once, and each sample's Dice sums
  over the sample's 2^20 elements flattened to one axis; flat position k of sample b is row k / 1024, lane k % 1024.
  Its third summand, the mean over samples of the mean of σ(x)·0, is zero: y·0 = 0 for every extended real y, so each
  inner sum is a sum of zeros, and zero divided by 2^20 and by 32 is zero.
-/
import proofs.«148591_j77292231459116_1_alg».proof.Defs
import proofs.«148591_j77292231459116_1_alg».proof.Proof.Gen.ReferenceIdeal.Read
import proofs.«148591_j77292231459116_1_alg».proof.Proof.LossSpec
import Idealize.ShloMosaic.Lib.ValueIdx
import Idealize.ShloMosaic.Lib.Pipeline.Value
import Idealize.ShloMosaic.PureOps.Ideal.Laws

noncomputable section

open scoped BigOperators

namespace Cert.RefSide

open Idealize.ShloMosaic Idealize.ShloMosaic.ValueIdx Cert.ReferenceIdeal Cert.ReferenceIdeal.Read Cert.Loss

variable (X T : (⟨S32x1x1024x1024, .f32⟩ : BufTy).Contents (Elt Ideal))

/-- The cross-entropy stage at an element is that element's term. -/
theorem bce_at (i : S32x1x1024x1024.Idx) : val_main_v8 (F := Ideal) X T i = bceTerm (X i) (T i) := by
  rw [val_main_v8_apply, val_main_v3_apply, val_main_v1_apply, val_main_v0_apply, val_main_cst_apply,
    val_main_v2_apply, val_main_v7_apply, val_main_v6_apply, val_main_v5_apply, val_main_v4_apply]
  show (max (X i) (Ideal.ofBits .f32 0x00000000#32) - X i * T i) + Ideal.log1p (Ideal.exp (-(max (X i) (-(X i))))) = _
  rw [Ideal.ofBits_zero_f32]
  rfl

/-- The sigmoid stage (1 / (1 + e^{−x}) spelt out) at an element is the logistic function of it. -/
theorem sigmoid_at (i : S32x1x1024x1024.Idx) : val_main_v16 (F := Ideal) X i = Ideal.logistic (X i) := by
  rw [val_main_v16_apply, val_main_v15_apply, val_main_cst_3_apply, val_main_v14_apply, val_main_v13_apply,
    val_main_cst_2_apply, val_main_v12_apply, val_main_v11_apply]
  show Ideal.div (Ideal.ofBits .f32 0x3F800000#32) (Ideal.ofBits .f32 0x3F800000#32 + Ideal.exp (-(X i))) = _
  rw [ofBits_one]
  rfl

/-- Flat position `r * 1024 + w` of sample `b` is element (b, 0, r, w). -/
theorem flat_idx (b : Fin 32) (r w : Fin 1024) (h : r.val * 1024 + w.val < 1048576) :
    idx_main_v17 (idx_main_v20 (ix1 b) ⟨r.val * 1024 + w.val, h⟩) = ix4 b 0 r w := by
  have hb := b.isLt; have hr := r.isLt; have hw := w.isLt
  funext a
  apply Fin.ext
  match a with
  | ⟨0, _⟩ => show (b.val * 1048576 + (r.val * 1024 + w.val)) / 1048576 = b.val; omega
  | ⟨1, _⟩ => rfl
  | ⟨2, _⟩ => show (b.val * 1048576 + (r.val * 1024 + w.val)) / 1024 % 1024 = r.val; omega
  | ⟨3, _⟩ => show (b.val * 1048576 + (r.val * 1024 + w.val)) % 1024 = w.val; omega

/-- Sample `b`'s flattened sum of σ(x)·t is its intersection sum. -/
theorem inter_at (b : Fin 32) : val_main_v20 (F := Ideal) X T (ix1 b) = interSum X T b := by
  rw [val_main_v20_apply, val_main_cst_4_apply]
  show Ideal.ofBits .f32 0x00000000#32 + _ = _
  rw [Ideal.ofBits_zero_f32, zero_add, sum_blocks 1024 1024 1048576 rfl]
  refine Finset.sum_congr rfl fun r _ => Finset.sum_congr rfl fun w _ => ?_
  rw [val_main_v19_apply, val_main_v17_apply, val_main_v18_apply, sigmoid_at]
  show Ideal.logistic (X (idx_main_v17 (idx_main_v20 (ix1 b) _))) * T (idx_main_v17 (idx_main_v20 (ix1 b) _)) = _
  rw [flat_idx]

/-- Sample `b`'s flattened sum of σ(x). -/
theorem prob_at (b : Fin 32) : val_main_v25 (F := Ideal) X (ix1 b) = probSum X b := by
  rw [val_main_v25_apply, val_main_cst_7_apply]
  show Ideal.ofBits .f32 0x00000000#32 + _ = _
  rw [Ideal.ofBits_zero_f32, zero_add, sum_blocks 1024 1024 1048576 rfl]
  refine Finset.sum_congr rfl fun r _ => Finset.sum_congr rfl fun w _ => ?_
  rw [val_main_v17_apply, sigmoid_at]
  show Ideal.logistic (X (idx_main_v17 (idx_main_v20 (ix1 b) _))) = _
  rw [flat_idx]

/-- Sample `b`'s flattened sum of t. -/
theorem targ_at (b : Fin 32) : val_main_v26 (F := Ideal) T (ix1 b) = targSum T b := by
  rw [val_main_v26_apply, val_main_cst_8_apply]
  show Ideal.ofBits .f32 0x00000000#32 + _ = _
  rw [Ideal.ofBits_zero_f32, zero_add, sum_blocks 1024 1024 1048576 rfl]
  refine Finset.sum_congr rfl fun r _ => Finset.sum_congr rfl fun w _ => ?_
  rw [val_main_v18_apply]
  show T (idx_main_v17 (idx_main_v20 (ix1 b) _)) = _
  rw [flat_idx]

/-- Sample `b`'s Dice coefficient. -/
theorem dice_at (b : Fin 32) : val_main_v30 (F := Ideal) X T (ix1 b) = diceCoef X T b := by
  rw [val_main_v30_apply, val_main_v24_apply, val_main_v22_apply, val_main_v21_apply, val_main_cst_5_apply,
    val_main_v23_apply, val_main_cst_6_apply, val_main_v29_apply, val_main_v27_apply, val_main_v28_apply,
    val_main_cst_9_apply, inter_at, prob_at, targ_at]
  rfl

/-- The whole-array sum of the cross-entropy terms. -/
theorem bce_total (i : S_.Idx) : val_main_v9 (F := Ideal) X T i = bceSum X T := by
  rw [val_main_v9_apply, val_main_cst_0_apply]
  show Ideal.ofBits .f32 0x00000000#32 + _ = _
  rw [Ideal.ofBits_zero_f32, zero_add, sum_idx4]
  refine Finset.sum_congr rfl fun b _ => ?_
  rw [Fin.sum_univ_one]
  refine Finset.sum_congr rfl fun r _ => Finset.sum_congr rfl fun w _ => ?_
  exact bce_at X T _

/-- The sum over the samples of the Dice coefficients. -/
theorem dice_total (i : S_.Idx) : val_main_v31 (F := Ideal) X T i = ∑ b : Fin 32, diceCoef X T b := by
  rw [val_main_v31_apply, val_main_cst_10_apply]
  show Ideal.ofBits .f32 0x00000000#32 + _ = _
  rw [Ideal.ofBits_zero_f32, zero_add, sum_idx1]
  exact Finset.sum_congr rfl fun b _ => dice_at X T b

/-- σ(x)·0 summed over a sample is zero, whatever σ(x) is. -/
theorem contour_sample (j : S32.Idx) : val_main_v37 (F := Ideal) X j = 0 := by
  have h0 : val_main_v36 (F := Ideal) X = fun _ => 0 := by
    funext i
    rw [val_main_v36_apply, val_main_v35_apply, val_main_cst_13_apply]
    show _ * Ideal.ofBits .f32 0x00000000#32 = 0
    rw [Ideal.ofBits_zero_f32, mul_zero]
  unfold val_main_v37
  rw [h0]
  show Ideal.hostReduceAdd _ _ (Ideal.ofBits .f32 0x00000000#32) j = 0
  unfold Ideal.hostReduceAdd
  rw [Ideal.ofBits_zero_f32, Finset.sum_const_zero, add_zero]

/-- So the reference's third summand is zero. -/
theorem contour_zero (i : S_.Idx) : val_main_v41 (F := Ideal) X i = 0 := by
  rw [val_main_v41_apply, val_main_v40_apply, val_main_cst_16_apply, val_main_cst_17_apply]
  have h : ∀ j : S32.Idx, val_main_v39 (F := Ideal) X j = 0 := fun j => by
    rw [val_main_v39_apply, val_main_v38_apply, val_main_cst_15_apply, contour_sample]
    show Ideal.div 0 (Ideal.ofBits .f32 0x49800000#32) = 0
    rw [ofBits_2p20]
    exact div_zero_coe (by norm_num)
  rw [Finset.sum_congr rfl fun j _ => h j, Finset.sum_const_zero]
  show Ideal.div (Ideal.ofBits .f32 0x00000000#32 + 0) (Ideal.ofBits .f32 0x42000000#32) = 0
  rw [Ideal.ofBits_zero_f32, add_zero, ofBits_32]
  exact div_zero_coe (by norm_num)

/-- The reference's result is the loss. -/
theorem value_eq : val_main_v43 (F := Ideal) X T = fun _ => loss X T := by
  funext i
  rw [val_main_v43_apply, val_main_v42_apply, val_main_v10_apply, val_main_cst_1_apply, val_main_v33_apply,
    val_main_cst_12_apply, val_main_v32_apply, val_main_cst_11_apply, bce_total, dice_total, contour_zero]
  show (Ideal.div (bceSum X T) (Ideal.ofBits .f32 0x4C000000#32)
      + (Ideal.ofBits .f32 0x3F800000#32 - Ideal.div (∑ b : Fin 32, diceCoef X T b) (Ideal.ofBits .f32 0x42000000#32))) + 0 = _
  rw [add_zero]
  rfl

end Cert.RefSide

end
-- ==== Proof.BodyPieces.lean ====
/-
  What one run of the kernel body leaves in each of its four accumulators, as a value.

  At the first grid point the body stores zero into an accumulator, reads it back, and stores the sum of that zero and
  the block's partial sum; at every later point it reads what the point before left and stores that plus the block's
  partial sum. In both cases the last store covers the whole accumulator, so the accumulator ends at that store's
  payload: the payload of the loaded input blocks and of the zero vector (first point) or of the previous contents
  (later points). Stated for any float instance.
-/
import proofs.«148591_j77292231459116_1_alg».proof.Proof.Gen.KernelIdeal.Frame
import Idealize.ShloMosaic.Lib.Pipeline.Value
import Idealize.ShloMosaic.Lib.Tactic

noncomputable section

namespace Cert.KernelSide

open Idealize.ShloMosaic Idealize.ShloMosaic.TcCoe Idealize.ShloMosaic.Tactic Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem left_B_2 (c : Dev nD) (i : grid0.Coords) (arg1 : Memref sig .tc .vmem S32x32x1024 .f32) (harg1 : arg1.IsWhole) (arg2 : Memref sig .tc .vmem S32x32x1024 .f32) (harg2 : arg2.IsWhole) (arg3 : Memref sig .tc .vmem S1x1 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (hc0 : ¬cond0_0 i) (x0 x1 : Vec F S32x32x1024 .f32) (xo2 : Vec F S1x1 .f32) (xo3 xo4 xo5 : Vec F S32x1 .f32) :
    out0_B_2 c i arg1 harg1 arg2 harg2 arg3 harg3 arg4 harg4 arg5 harg5 arg6 harg6 hc0 x0 x1 xo2 xo3 xo4 xo5 = k0_pay9 x0 x1 xo2 := by
  unfold out0_B_2
  rw [View.read_writes_eq_canon _ _ _ (cover0_B_2 c i arg1 harg1 arg2 harg2 arg3 harg3 arg4 harg4 arg5 harg5 arg6 harg6 hc0 x0 x1 xo2 xo3 xo4 xo5)]
  unfold kernelRun0_B
  dsimp only
  sl_unfold_words
  rw [View.canon_unit_zero hz2]
  simp only [View.readAt_eq_ld, harg1.read_unread, harg2.read_unread, harg3.read_unread, harg4.read_unread, harg5.read_unread, harg6.read_unread, View.ld_unit_zero (S := S32x32x1024) hz3, View.ld_unit_zero (S := S1x1) hz2, View.ld_unit_zero (S := S32x1) hz2]

theorem left_B_3 (c : Dev nD) (i : grid0.Coords) (arg1 : Memref sig .tc .vmem S32x32x1024 .f32) (harg1 : arg1.IsWhole) (arg2 : Memref sig .tc .vmem S32x32x1024 .f32) (harg2 : arg2.IsWhole) (arg3 : Memref sig .tc .vmem S1x1 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (hc0 : ¬cond0_0 i) (x0 x1 : Vec F S32x32x1024 .f32) (xo2 : Vec F S1x1 .f32) (xo3 xo4 xo5 : Vec F S32x1 .f32) :
    out0_B_3 c i arg1 harg1 arg2 harg2 arg3 harg3 arg4 harg4 arg5 harg5 arg6 harg6 hc0 x0 x1 xo2 xo3 xo4 xo5 = k0_pay11 x0 x1 xo3 := by
  unfold out0_B_3
  rw [View.read_writes_eq_canon _ _ _ (cover0_B_3 c i arg1 harg1 arg2 harg2 arg3 harg3 arg4 harg4 arg5 harg5 arg6 harg6 hc0 x0 x1 xo2 xo3 xo4 xo5)]
  unfold kernelRun0_B
  dsimp only
  sl_unfold_words
  rw [View.canon_unit_zero hz2]
  simp only [View.readAt_eq_ld, harg1.read_unread, harg2.read_unread, harg3.read_unread, harg4.read_unread, harg5.read_unread, harg6.read_unread, View.ld_unit_zero (S := S32x32x1024) hz3, View.ld_unit_zero (S := S1x1) hz2, View.ld_unit_zero (S := S32x1) hz2]

theorem left_B_4 (c : Dev nD) (i : grid0.Coords) (arg1 : Memref sig .tc .vmem S32x32x1024 .f32) (harg1 : arg1.IsWhole) (arg2 : Memref sig .tc .vmem S32x32x1024 .f32) (harg2 : arg2.IsWhole) (arg3 : Memref sig .tc .vmem S1x1 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (hc0 : ¬cond0_0 i) (x0 x1 : Vec F S32x32x1024 .f32) (xo2 : Vec F S1x1 .f32) (xo3 xo4 xo5 : Vec F S32x1 .f32) :
    out0_B_4 c i arg1 harg1 arg2 harg2 arg3 harg3 arg4 harg4 arg5 harg5 arg6 harg6 hc0 x0 x1 xo2 xo3 xo4 xo5 = k0_pay1 (k0_pay10 x0) xo4 := by
  unfold out0_B_4
  rw [View.read_writes_eq_canon _ _ _ (cover0_B_4 c i arg1 harg1 arg2 harg2 arg3 harg3 arg4 harg4 arg5 harg5 arg6 harg6 hc0 x0 x1 xo2 xo3 xo4 xo5)]
  unfold kernelRun0_B
  dsimp only
  sl_unfold_words
  rw [View.canon_unit_zero hz2]
  simp only [View.readAt_eq_ld, harg1.read_unread, harg2.read_unread, harg3.read_unread, harg4.read_unread, harg5.read_unread, harg6.read_unread, View.ld_unit_zero (S := S32x32x1024) hz3, View.ld_unit_zero (S := S1x1) hz2, View.ld_unit_zero (S := S32x1) hz2]

theorem left_B_5 (c : Dev nD) (i : grid0.Coords) (arg1 : Memref sig .tc .vmem S32x32x1024 .f32) (harg1 : arg1.IsWhole) (arg2 : Memref sig .tc .vmem S32x32x1024 .f32) (harg2 : arg2.IsWhole) (arg3 : Memref sig .tc .vmem S1x1 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (hc0 : ¬cond0_0 i) (x0 x1 : Vec F S32x32x1024 .f32) (xo2 : Vec F S1x1 .f32) (xo3 xo4 xo5 : Vec F S32x1 .f32) :
    out0_B_5 c i arg1 harg1 arg2 harg2 arg3 harg3 arg4 harg4 arg5 harg5 arg6 harg6 hc0 x0 x1 xo2 xo3 xo4 xo5 = k0_pay2 (k0_pay8 x1) xo5 := by
  unfold out0_B_5
  rw [View.read_writes_eq_canon _ _ _ (cover0_B_5 c i arg1 harg1 arg2 harg2 arg3 harg3 arg4 harg4 arg5 harg5 arg6 harg6 hc0 x0 x1 xo2 xo3 xo4 xo5)]
  unfold kernelRun0_B
  dsimp only
  sl_unfold_words
  rw [View.canon_unit_zero hz2]
  simp only [View.readAt_eq_ld, harg1.read_unread, harg2.read_unread, harg3.read_unread, harg4.read_unread, harg5.read_unread, harg6.read_unread, View.ld_unit_zero (S := S32x32x1024) hz3, View.ld_unit_zero (S := S1x1) hz2, View.ld_unit_zero (S := S32x1) hz2]

theorem left_A_2 (c : Dev nD) (i : grid0.Coords) (arg1 : Memref sig .tc .vmem S32x32x1024 .f32) (harg1 : arg1.IsWhole) (arg2 : Memref sig .tc .vmem S32x32x1024 .f32) (harg2 : arg2.IsWhole) (arg3 : Memref sig .tc .vmem S1x1 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (hc0 : cond0_0 i) (x0 x1 : Vec F S32x32x1024 .f32) :
    out0_A_2 c i arg1 harg1 arg2 harg2 arg3 harg3 arg4 harg4 arg5 harg5 arg6 harg6 hc0 x0 x1 = k0_pay9 x0 x1 k0_pay3 := by
  unfold out0_A_2
  rw [View.read_writes_eq_canon _ _ _ (cover0_A_2 c i arg1 harg1 arg2 harg2 arg3 harg3 arg4 harg4 arg5 harg5 arg6 harg6 hc0 x0 x1)]
  unfold kernelRun0_A
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread, harg5.read_unread, harg6.read_unread, View.ld_unit_zero (S := S32x32x1024) hz3, View.ld_unit_zero (S := S1x1) hz2, View.ld_unit_zero (S := S32x1) hz2]

theorem left_A_3 (c : Dev nD) (i : grid0.Coords) (arg1 : Memref sig .tc .vmem S32x32x1024 .f32) (harg1 : arg1.IsWhole) (arg2 : Memref sig .tc .vmem S32x32x1024 .f32) (harg2 : arg2.IsWhole) (arg3 : Memref sig .tc .vmem S1x1 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (hc0 : cond0_0 i) (x0 x1 : Vec F S32x32x1024 .f32) :
    out0_A_3 c i arg1 harg1 arg2 harg2 arg3 harg3 arg4 harg4 arg5 harg5 arg6 harg6 hc0 x0 x1 = k0_pay11 x0 x1 k0_pay4 := by
  unfold out0_A_3
  rw [View.read_writes_eq_canon _ _ _ (cover0_A_3 c i arg1 harg1 arg2 harg2 arg3 harg3 arg4 harg4 arg5 harg5 arg6 harg6 hc0 x0 x1)]
  unfold kernelRun0_A
  dsimp only
  sl_unfold_words
  rw [View.canon_cons_unit_zero (S := S32x1) hz2, View.readCov_unit_zero (S := S32x1) _ hz2]
  simp only [View.readAt_eq_ld, harg1.read_unread, harg2.read_unread, harg3.read_unread, harg4.read_unread, harg5.read_unread, harg6.read_unread, View.ld_unit_zero (S := S32x32x1024) hz3, View.ld_unit_zero (S := S1x1) hz2, View.ld_unit_zero (S := S32x1) hz2]

theorem left_A_4 (c : Dev nD) (i : grid0.Coords) (arg1 : Memref sig .tc .vmem S32x32x1024 .f32) (harg1 : arg1.IsWhole) (arg2 : Memref sig .tc .vmem S32x32x1024 .f32) (harg2 : arg2.IsWhole) (arg3 : Memref sig .tc .vmem S1x1 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (hc0 : cond0_0 i) (x0 x1 : Vec F S32x32x1024 .f32) :
    out0_A_4 c i arg1 harg1 arg2 harg2 arg3 harg3 arg4 harg4 arg5 harg5 arg6 harg6 hc0 x0 x1 = k0_pay1 (k0_pay10 x0) k0_pay5 := by
  unfold out0_A_4
  rw [View.read_writes_eq_canon _ _ _ (cover0_A_4 c i arg1 harg1 arg2 harg2 arg3 harg3 arg4 harg4 arg5 harg5 arg6 harg6 hc0 x0 x1)]
  unfold kernelRun0_A
  dsimp only
  sl_unfold_words
  rw [View.canon_cons_unit_zero (S := S32x1) hz2, View.readCov_unit_zero (S := S32x1) _ hz2]
  simp only [View.readAt_eq_ld, harg1.read_unread, harg2.read_unread, harg3.read_unread, harg4.read_unread, harg5.read_unread, harg6.read_unread, View.ld_unit_zero (S := S32x32x1024) hz3, View.ld_unit_zero (S := S1x1) hz2, View.ld_unit_zero (S := S32x1) hz2]

theorem left_A_5 (c : Dev nD) (i : grid0.Coords) (arg1 : Memref sig .tc .vmem S32x32x1024 .f32) (harg1 : arg1.IsWhole) (arg2 : Memref sig .tc .vmem S32x32x1024 .f32) (harg2 : arg2.IsWhole) (arg3 : Memref sig .tc .vmem S1x1 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (hc0 : cond0_0 i) (x0 x1 : Vec F S32x32x1024 .f32) :
    out0_A_5 c i arg1 harg1 arg2 harg2 arg3 harg3 arg4 harg4 arg5 harg5 arg6 harg6 hc0 x0 x1 = k0_pay2 (k0_pay8 x1) k0_pay6 := by
  unfold out0_A_5
  rw [View.read_writes_eq_canon _ _ _ (cover0_A_5 c i arg1 harg1 arg2 harg2 arg3 harg3 arg4 harg4 arg5 harg5 arg6 harg6 hc0 x0 x1)]
  unfold kernelRun0_A
  dsimp only
  sl_unfold_words
  rw [View.canon_cons_unit_zero (S := S32x1) hz2, View.readCov_unit_zero (S := S32x1) _ hz2]
  simp only [View.readAt_eq_ld, harg1.read_unread, harg2.read_unread, harg3.read_unread, harg4.read_unread, harg5.read_unread, harg6.read_unread, View.ld_unit_zero (S := S32x32x1024) hz3, View.ld_unit_zero (S := S1x1) hz2, View.ld_unit_zero (S := S32x1) hz2]

end Cert.KernelSide

end
-- ==== Proof.BlockSums.lean ====
/-
  The body's arithmetic on one [32, 32, 1024] block of logits x and targets t, read at an index over the extended reals.

  Each accumulator's update is "previous contents + the block's partial sum", the partial sum taken lane axis first
  (1024 lanes), then the block's 32 rows, and for the cross-entropy also over the 32 samples:

    cross-entropy  acc(0,0) + Σ_b Σ_q Σ_w bce(x, t)(b, q, w)
    intersection   acc(b,0) + Σ_q Σ_w σ(x)·t (b, q, w)
    probabilities  acc(b,0) + Σ_q Σ_w σ(x)   (b, q, w)
    targets        acc(b,0) + Σ_q Σ_w t      (b, q, w)

  A sum over one axis reads as the sum over that axis's coordinate; the casts between [32,32] and [32,32,1], [32,1] and
  [32,1,1] keep the row-major position.
-/
import proofs.«148591_j77292231459116_1_alg».proof.Proof.Gen.KernelIdeal.Skeleton
import proofs.«148591_j77292231459116_1_alg».proof.Proof.LossSpec
import Idealize.ShloMosaic.Lib.ValueIdx
import Idealize.ShloMosaic.Lib.Pipeline.Value
import Idealize.ShloMosaic.PureOps.Ideal.Laws

noncomputable section

open scoped BigOperators

namespace Cert.KernelSide

open Idealize.ShloMosaic Idealize.ShloMosaic.ValueIdx Cert.KernelIdeal Cert.KernelIdeal.Gen Cert.Loss

/-! ## One-axis sums and unit-axis casts at literal shapes -/

/-- The sum over the lane axis of a [32, 32, 1024] vector, at (b, q). -/
theorem sum_lanes (src : FVec Ideal S32x32x1024 .f32) (b q : Fin 32) :
    multiReduction (F := Ideal) .add [2] S32x32 src 0x00000000#32 reduces_S32x32x1024_S32x32 (.inl rfl) rfl (ix2 b q)
      = ∑ w : Fin 1024, src (ix3 b q w) :=
  (Ideal.multiReduction_add_single src 0x00000000#32 reduces_S32x32x1024_S32x32 (.inl rfl) rfl (ix2 b q)).trans
    (Finset.sum_congr rfl fun w _ => congrArg src (funext fun a => by
      match a with | ⟨0, _⟩ => rfl | ⟨1, _⟩ => rfl | ⟨2, _⟩ => rfl))

/-- The sum over the row axis of a [32, 32, 1] vector, at (b, 0). -/
theorem sum_rows (v : FVec Ideal S32x32x1 .f32) (b : Fin 32) :
    multiReduction (F := Ideal) .add [1] S32x1 v 0x00000000#32 reduces_S32x32x1_S32x1 (.inl rfl) rfl (ix2 b 0)
      = ∑ q : Fin 32, v (ix3 b q 0) :=
  (Ideal.multiReduction_add_single v 0x00000000#32 reduces_S32x32x1_S32x1 (.inl rfl) rfl (ix2 b 0)).trans
    (Finset.sum_congr rfl fun q _ => congrArg v (funext fun a => by
      match a with | ⟨0, _⟩ => rfl | ⟨1, _⟩ => rfl | ⟨2, _⟩ => rfl))

/-- The sum over the sample axis of a [32, 1, 1] vector, at (0, 0). -/
theorem sum_samples (v : FVec Ideal S32x1x1 .f32) :
    multiReduction (F := Ideal) .add [0] S1x1 v 0x00000000#32 reduces_S32x1x1_S1x1 (.inl rfl) rfl (ix2 0 0)
      = ∑ b : Fin 32, v (ix3 b 0 0) :=
  (Ideal.multiReduction_add_single v 0x00000000#32 reduces_S32x1x1_S1x1 (.inl rfl) rfl (ix2 0 0)).trans
    (Finset.sum_congr rfl fun b _ => congrArg v (funext fun a => by
      match a with | ⟨0, _⟩ => rfl | ⟨1, _⟩ => rfl | ⟨2, _⟩ => rfl))

/-- [32, 32] viewed as [32, 32, 1]: (b, q, 0) reads (b, q). -/
theorem cast_rows (u : FVec Ideal S32x32 .f32) (b q : Fin 32) :
    shapeCast S32x32x1 u shapeCasts_S32x32_S32x32x1 (ix3 b q 0) = u (ix2 b q) :=
  shapeCast_apply u shapeCasts_S32x32_S32x32x1 (ix3 b q 0) (ix2 b q) (by
    rw [Shape.rowMajor_val_two, Shape.rowMajor_val_three]
    show b.val * 32 + q.val = (b.val * 32 + q.val) * 1 + 0
    omega)

/-- [32, 1] viewed as [32, 1, 1]: (b, 0, 0) reads (b, 0). -/
theorem cast_samples (u : FVec Ideal S32x1 .f32) (b : Fin 32) :
    shapeCast S32x1x1 u shapeCasts_S32x1_S32x1x1 (ix3 b 0 0) = u (ix2 b 0) :=
  shapeCast_apply u shapeCasts_S32x1_S32x1x1 (ix3 b 0 0) (ix2 b 0) (by
    rw [Shape.rowMajor_val_two, Shape.rowMajor_val_three]
    show b.val * 1 + 0 = (b.val * 1 + 0) * 1 + 0
    omega)

/-! ## The block's partial sums -/

/-- A block summed over its lanes and then its rows, one value per sample (kept as a [32, 1] column). -/
def perSample (src : FVec Ideal S32x32x1024 .f32) : FVec Ideal S32x1 .f32 :=
  multiReduction (F := Ideal) .add [1] S32x1
    (shapeCast S32x32x1 (multiReduction (F := Ideal) .add [2] S32x32 src 0x00000000#32 reduces_S32x32x1024_S32x32 (.inl rfl) rfl)
      shapeCasts_S32x32_S32x32x1) 0x00000000#32 reduces_S32x32x1_S32x1 (.inl rfl) rfl

theorem perSample_apply (src : FVec Ideal S32x32x1024 .f32) (b : Fin 32) :
    perSample src (ix2 b 0) = ∑ q : Fin 32, ∑ w : Fin 1024, src (ix3 b q w) :=
  (sum_rows _ b).trans (Finset.sum_congr rfl fun q _ => (cast_rows _ b q).trans (sum_lanes src b q))

/-- A block summed over everything, as a [1, 1] vector. -/
def overall (src : FVec Ideal S32x32x1024 .f32) : FVec Ideal S1x1 .f32 :=
  multiReduction (F := Ideal) .add [0] S1x1 (shapeCast S32x1x1 (perSample src) shapeCasts_S32x1_S32x1x1)
    0x00000000#32 reduces_S32x1x1_S1x1 (.inl rfl) rfl

theorem overall_apply (src : FVec Ideal S32x32x1024 .f32) :
    overall src (ix2 0 0) = ∑ b : Fin 32, ∑ q : Fin 32, ∑ w : Fin 1024, src (ix3 b q w) :=
  (sum_samples _).trans (Finset.sum_congr rfl fun b _ => (cast_samples _ b).trans (perSample_apply src b))

/-! ## The four updates at an index -/

/-- The body's cross-entropy term, with its zero constants as it spells them, is `bceTerm`. -/
theorem bce_spelt (x t : EReal) :
    (max x (Ideal.ofBits .f32 0x00000000#32) - x * t)
        + Ideal.log1p (Ideal.exp (Ideal.ofBits .f32 0x00000000#32 - max x (-x))) = bceTerm x t := by
  rw [Ideal.ofBits_zero_f32, sub_eq_add_neg (0 : EReal), zero_add]
  rfl

/-- Cross-entropy: the [1, 1] accumulator plus the block's total. -/
theorem bce_update (x t : Vec Ideal S32x32x1024 .f32) (acc : Vec Ideal S1x1 .f32) :
    k0_pay9 (F := Ideal) x t acc (ix2 0 0)
      = acc (ix2 0 0) + ∑ b : Fin 32, ∑ q : Fin 32, ∑ w : Fin 1024, bceTerm (x (ix3 b q w)) (t (ix3 b q w)) := by
  show shapeCast S1x1 acc shapeCasts_S1x1_S1x1 (ix2 0 0)
      + overall (fun i => (max (shapeCast S32x32x1024 x shapeCasts_S32x32x1024_S32x32x1024 i) (Ideal.ofBits .f32 0x00000000#32)
          - shapeCast S32x32x1024 x shapeCasts_S32x32x1024_S32x32x1024 i * shapeCast S32x32x1024 t shapeCasts_S32x32x1024_S32x32x1024 i)
        + Ideal.log1p (Ideal.exp (Ideal.ofBits .f32 0x00000000#32
            - max (shapeCast S32x32x1024 x shapeCasts_S32x32x1024_S32x32x1024 i) (-(shapeCast S32x32x1024 x shapeCasts_S32x32x1024_S32x32x1024 i))))) (ix2 0 0) = _
  rw [shapeCast_self, shapeCast_self, shapeCast_self, overall_apply]
  refine congrArg (acc (ix2 0 0) + ·) ?_
  exact Finset.sum_congr rfl fun b _ => Finset.sum_congr rfl fun q _ => Finset.sum_congr rfl fun w _ => bce_spelt _ _

/-- Intersection: the [32, 1] accumulator plus the block's per-sample sums of σ(x)·t. -/
theorem inter_update (x t : Vec Ideal S32x32x1024 .f32) (acc : Vec Ideal S32x1 .f32) (b : Fin 32) :
    k0_pay11 (F := Ideal) x t acc (ix2 b 0)
      = acc (ix2 b 0) + ∑ q : Fin 32, ∑ w : Fin 1024, Ideal.logistic (x (ix3 b q w)) * t (ix3 b q w) := by
  show shapeCast S32x1 acc shapeCasts_S32x1_S32x1 (ix2 b 0)
      + perSample (fun i => Ideal.logistic (shapeCast S32x32x1024 x shapeCasts_S32x32x1024_S32x32x1024 i)
          * shapeCast S32x32x1024 t shapeCasts_S32x32x1024_S32x32x1024 i) (ix2 b 0) = _
  rw [shapeCast_self, shapeCast_self, shapeCast_self, perSample_apply]

/-- Probabilities: the [32, 1] accumulator plus the block's per-sample sums of σ(x). -/
theorem prob_update (x : Vec Ideal S32x32x1024 .f32) (acc : Vec Ideal S32x1 .f32) (b : Fin 32) :
    k0_pay1 (F := Ideal) (k0_pay10 x) acc (ix2 b 0)
      = acc (ix2 b 0) + ∑ q : Fin 32, ∑ w : Fin 1024, Ideal.logistic (x (ix3 b q w)) := by
  show shapeCast S32x1 acc shapeCasts_S32x1_S32x1 (ix2 b 0)
      + perSample (fun i => Ideal.logistic (shapeCast S32x32x1024 x shapeCasts_S32x32x1024_S32x32x1024 i)) (ix2 b 0) = _
  rw [shapeCast_self, shapeCast_self, perSample_apply]

/-- Targets: the [32, 1] accumulator plus the block's per-sample sums of t. -/
theorem targ_update (t : Vec Ideal S32x32x1024 .f32) (acc : Vec Ideal S32x1 .f32) (b : Fin 32) :
    k0_pay2 (F := Ideal) (k0_pay8 t) acc (ix2 b 0)
      = acc (ix2 b 0) + ∑ q : Fin 32, ∑ w : Fin 1024, t (ix3 b q w) := by
  show shapeCast S32x1 acc shapeCasts_S32x1_S32x1 (ix2 b 0)
      + perSample (shapeCast S32x32x1024 t shapeCasts_S32x32x1024_S32x32x1024) (ix2 b 0) = _
  rw [shapeCast_self, shapeCast_self, perSample_apply]

/-- The zero vectors the first point stores read zero. -/
theorem zero11 (j : S1x1.Idx) : k0_pay3 (F := Ideal) j = 0 := Ideal.ofBits_zero_f32
theorem zero_inter (j : S32x1.Idx) : k0_pay4 (F := Ideal) j = 0 := Ideal.ofBits_zero_f32
theorem zero_prob (j : S32x1.Idx) : k0_pay5 (F := Ideal) j = 0 := Ideal.ofBits_zero_f32
theorem zero_targ (j : S32x1.Idx) : k0_pay6 (F := Ideal) j = 0 := Ideal.ofBits_zero_f32

end Cert.KernelSide

end
-- ==== Proof.Accumulate.lean ====
/-
  The four accumulators over the whole grid.

  The grid has 32 points; point k stages rows 32k … 32k + 31 of every sample of the logits and of the targets (both
  with their unit axis dropped on the way in) and adds the block's partial sums to four accumulators that stay in place
  from point to point: the first point starts them from zero. By induction on the point, after point n each accumulator
  holds the sum of the partial sums of points 0 … n; the 32 row blocks are the 1024 rows, so after the last point the
  accumulators hold the whole-array sums of Proof/LossSpec.lean. Each accumulator's block is its whole array and is
  written back once, after the last point.
-/
import proofs.«148591_j77292231459116_1_alg».proof.Proof.Gen.KernelIdeal.Frame
import proofs.«148591_j77292231459116_1_alg».proof.Proof.BodyPieces
import proofs.«148591_j77292231459116_1_alg».proof.Proof.BlockSums
import proofs.«148591_j77292231459116_1_alg».proof.Proof.LossSpec
import Idealize.ShloMosaic.Lib.ValueIdx
import Idealize.ShloMosaic.Lib.Pipeline.Value
import Idealize.ShloMosaic.Lib.StableHlo.Run

noncomputable section

open scoped BigOperators

namespace Cert.KernelSide

open Idealize.ShloMosaic Idealize.ShloMosaic.TcCoe Idealize.ShloMosaic.ValueIdx Idealize.SL.Sem
open Idealize.ShloMosaic.Pipeline (Dat)
open Cert.KernelIdeal Cert.KernelIdeal.Gen Cert.Loss

variable (m : (ℓ : Loc nD τ sig) → Buf (Elt Ideal) ℓ)

/-! ## The partial sums of one grid point's blocks -/

/-- Point `t`'s cross-entropy total over its blocks of logits and targets. -/
def bceBlk (c : Dev nD) (t : Fin cfg0.N) : EReal :=
  ∑ b : Fin 32, ∑ q : Fin 32, ∑ w : Fin 1024, bceTerm ((iblk m c 0 t : Vec Ideal S32x32x1024 .f32) (ix3 b q w)) ((iblk m c 1 t : Vec Ideal S32x32x1024 .f32) (ix3 b q w))

/-- Point `t`'s sum of σ(x)·t for sample `b`. -/
def interBlk (c : Dev nD) (b : Fin 32) (t : Fin cfg0.N) : EReal :=
  ∑ q : Fin 32, ∑ w : Fin 1024, Ideal.logistic ((iblk m c 0 t : Vec Ideal S32x32x1024 .f32) (ix3 b q w)) * (iblk m c 1 t : Vec Ideal S32x32x1024 .f32) (ix3 b q w)

/-- Point `t`'s sum of σ(x) for sample `b`. -/
def probBlk (c : Dev nD) (b : Fin 32) (t : Fin cfg0.N) : EReal :=
  ∑ q : Fin 32, ∑ w : Fin 1024, Ideal.logistic ((iblk m c 0 t : Vec Ideal S32x32x1024 .f32) (ix3 b q w))

/-- Point `t`'s sum of t for sample `b`. -/
def targBlk (c : Dev nD) (b : Fin 32) (t : Fin cfg0.N) : EReal :=
  ∑ q : Fin 32, ∑ w : Fin 1024, (iblk m c 1 t : Vec Ideal S32x32x1024 .f32) (ix3 b q w)

/-- A function of the grid points continued by zero past the last point, so that a running sum is a sum over a range. -/
def upto (f : Fin cfg0.N → EReal) (k : ℕ) : EReal := if h : k < cfg0.N then f ⟨k, h⟩ else 0

/-! ## The accumulators after point n hold the sums over the points up to n -/

/-- The cross-entropy accumulator after point `n`: the first point adds its total to zero, each later point to what the point before left. -/
theorem bce_running (c : Dev nD) : ∀ (n : ℕ) (h : n < cfg0.N),
    (outsAt0 m c n h).1 (ix2 0 0) = ∑ k ∈ Finset.range (n + 1), upto (bceBlk m c) k
  | 0, h => by
    rw [outsAt0_A m c ⟨0, h⟩ rfl]
    dsimp only
    rw [left_A_2, bce_update, zero11, zero_add, Finset.sum_range_one, upto, dif_pos h]
    rfl
  | n + 1, h => by
    have hN : cfg0.N = 32 := N_0
    have hB : ¬(⟨n + 1, h⟩ : Fin cfg0.N).val % 32 = 0 := by dsimp only; omega
    rw [outsAt0_B m c ⟨n + 1, h⟩ hB]
    dsimp only
    rw [left_B_2, bce_update, Finset.sum_range_succ, upto, dif_pos h]
    show (outsAt0 m c n _).1 (ix2 0 0) + _ = _
    rw [bce_running c n]
    rfl

/-- The intersection accumulator after point `n`, at sample `b`. -/
theorem inter_running (c : Dev nD) (b : Fin 32) : ∀ (n : ℕ) (h : n < cfg0.N),
    (outsAt0 m c n h).2.1 (ix2 b 0) = ∑ k ∈ Finset.range (n + 1), upto (interBlk m c b) k
  | 0, h => by
    rw [outsAt0_A m c ⟨0, h⟩ rfl]
    dsimp only
    rw [left_A_3, inter_update, zero_inter, zero_add, Finset.sum_range_one, upto, dif_pos h]
    rfl
  | n + 1, h => by
    have hN : cfg0.N = 32 := N_0
    have hB : ¬(⟨n + 1, h⟩ : Fin cfg0.N).val % 32 = 0 := by dsimp only; omega
    rw [outsAt0_B m c ⟨n + 1, h⟩ hB]
    dsimp only
    rw [left_B_3, inter_update, Finset.sum_range_succ, upto, dif_pos h]
    show (outsAt0 m c n _).2.1 (ix2 b 0) + _ = _
    rw [inter_running c b n]
    rfl

/-- The probability accumulator after point `n`, at sample `b`. -/
theorem prob_running (c : Dev nD) (b : Fin 32) : ∀ (n : ℕ) (h : n < cfg0.N),
    (outsAt0 m c n h).2.2.1 (ix2 b 0) = ∑ k ∈ Finset.range (n + 1), upto (probBlk m c b) k
  | 0, h => by
    rw [outsAt0_A m c ⟨0, h⟩ rfl]
    dsimp only
    rw [left_A_4, prob_update, zero_prob, zero_add, Finset.sum_range_one, upto, dif_pos h]
    rfl
  | n + 1, h => by
    have hN : cfg0.N = 32 := N_0
    have hB : ¬(⟨n + 1, h⟩ : Fin cfg0.N).val % 32 = 0 := by dsimp only; omega
    rw [outsAt0_B m c ⟨n + 1, h⟩ hB]
    dsimp only
    rw [left_B_4, prob_update, Finset.sum_range_succ, upto, dif_pos h]
    show (outsAt0 m c n _).2.2.1 (ix2 b 0) + _ = _
    rw [prob_running c b n]
    rfl

/-- The target accumulator after point `n`, at sample `b`. -/
theorem targ_running (c : Dev nD) (b : Fin 32) : ∀ (n : ℕ) (h : n < cfg0.N),
    (outsAt0 m c n h).2.2.2 (ix2 b 0) = ∑ k ∈ Finset.range (n + 1), upto (targBlk m c b) k
  | 0, h => by
    rw [outsAt0_A m c ⟨0, h⟩ rfl]
    dsimp only
    rw [left_A_5, targ_update, zero_targ, zero_add, Finset.sum_range_one, upto, dif_pos h]
    rfl
  | n + 1, h => by
    have hN : cfg0.N = 32 := N_0
    have hB : ¬(⟨n + 1, h⟩ : Fin cfg0.N).val % 32 = 0 := by dsimp only; omega
    rw [outsAt0_B m c ⟨n + 1, h⟩ hB]
    dsimp only
    rw [left_B_5, targ_update, Finset.sum_range_succ, upto, dif_pos h]
    show (outsAt0 m c n _).2.2.2 (ix2 b 0) + _ = _
    rw [targ_running c b n]
    rfl

/-! ## What a block reads -/

/-- The logits. -/
abbrev logits (c : Dev nD) : Arr := m ((c : Thread nD τ).loc main_arg0)
/-- The targets. -/
abbrev targets (c : Dev nD) : Arr := m ((c : Thread nD τ).loc main_arg1)

/-- The region finds the logits with their unit axis dropped: (b, r, w) reads (b, 0, r, w). -/
theorem entry_x (c : Dev nD) (b : Fin 32) (r w : Fin 1024) :
    V m c main_v0 (ix3 b r w) = logits m c (ix4 b 0 r w) := by
  have e : (V m c main_v0 : S32x1024x1024.Idx → EReal)
      = shapeCast S32x1024x1024 (m ((c : Thread nD τ).loc main_arg0)) shapeCasts_S32x1x1024x1024_S32x1024x1024 := by
    show StableHlo.after hostOps0 (fun b => m (c, b)) (Proc.devRef .tc main_v0) = _
    after_results
    rfl
  rw [e]
  exact shapeCast_apply _ _ (ix3 b r w) (ix4 b 0 r w) (by
    rw [Shape.rowMajor_val_four, Shape.rowMajor_val_three]
    show ((b.val * 1 + 0) * 1024 + r.val) * 1024 + w.val = (b.val * 1024 + r.val) * 1024 + w.val
    omega)

/-- The same for the targets. -/
theorem entry_t (c : Dev nD) (b : Fin 32) (r w : Fin 1024) :
    V m c main_v1 (ix3 b r w) = targets m c (ix4 b 0 r w) := by
  have e : (V m c main_v1 : S32x1024x1024.Idx → EReal)
      = shapeCast S32x1024x1024 (m ((c : Thread nD τ).loc main_arg1)) shapeCasts_S32x1x1024x1024_S32x1024x1024 := by
    show StableHlo.after hostOps0 (fun b => m (c, b)) (Proc.devRef .tc main_v1) = _
    after_results
    rfl
  rw [e]
  exact shapeCast_apply _ _ (ix3 b r w) (ix4 b 0 r w) (by
    rw [Shape.rowMajor_val_four, Shape.rowMajor_val_three]
    show ((b.val * 1 + 0) * 1024 + r.val) * 1024 + w.val = (b.val * 1024 + r.val) * 1024 + w.val
    omega)

/-- Point `k`'s block of logits is rows 32k … 32k + 31 of every sample: (b, q, w) reads (b, 0, 32k + q, w). -/
theorem block_x (c : Dev nD) (k : ℕ) (hk : k < cfg0.N) (b q : Fin 32) (w : Fin 1024) (hr : k * 32 + q.val < 1024) :
    (iblk m c 0 ⟨k, hk⟩ : Vec Ideal S32x32x1024 .f32) (ix3 b q w) = logits m c (ix4 b 0 ⟨k * 32 + q.val, hr⟩ w) := by
  have hi : win0_0.index ⟨k, hk⟩ 0 = 0 ∧ win0_0.index ⟨k, hk⟩ 1 = k ∧ win0_0.index ⟨k, hk⟩ 2 = 0 :=
    (by decide +kernel : ∀ t : Fin grid0.N, win0_0.index t 0 = 0 ∧ win0_0.index t 1 = t.val ∧ win0_0.index t 2 = 0) ⟨k, hk⟩
  rw [← entry_x]
  unfold iblk
  rw [View.read_apply]
  show V m c main_v0 _ = V m c main_v0 _
  refine congrArg (V m c main_v0) (funext fun a => Fin.ext ?_)
  match a with
  | ⟨0, _⟩ => show win0_0.index ⟨k, hk⟩ 0 * 32 + 1 * b.val = b.val; rw [hi.1]; omega
  | ⟨1, _⟩ => show win0_0.index ⟨k, hk⟩ 1 * 32 + 1 * q.val = k * 32 + q.val; rw [hi.2.1]; omega
  | ⟨2, _⟩ => show win0_0.index ⟨k, hk⟩ 2 * 1024 + 1 * w.val = w.val; rw [hi.2.2]; omega

/-- The same for the targets. -/
theorem block_t (c : Dev nD) (k : ℕ) (hk : k < cfg0.N) (b q : Fin 32) (w : Fin 1024) (hr : k * 32 + q.val < 1024) :
    (iblk m c 1 ⟨k, hk⟩ : Vec Ideal S32x32x1024 .f32) (ix3 b q w) = targets m c (ix4 b 0 ⟨k * 32 + q.val, hr⟩ w) := by
  have hi : win0_1.index ⟨k, hk⟩ 0 = 0 ∧ win0_1.index ⟨k, hk⟩ 1 = k ∧ win0_1.index ⟨k, hk⟩ 2 = 0 :=
    (by decide +kernel : ∀ t : Fin grid0.N, win0_1.index t 0 = 0 ∧ win0_1.index t 1 = t.val ∧ win0_1.index t 2 = 0) ⟨k, hk⟩
  rw [← entry_t]
  unfold iblk
  rw [View.read_apply]
  show V m c main_v1 _ = V m c main_v1 _
  refine congrArg (V m c main_v1) (funext fun a => Fin.ext ?_)
  match a with
  | ⟨0, _⟩ => show win0_1.index ⟨k, hk⟩ 0 * 32 + 1 * b.val = b.val; rw [hi.1]; omega
  | ⟨1, _⟩ => show win0_1.index ⟨k, hk⟩ 1 * 32 + 1 * q.val = k * 32 + q.val; rw [hi.2.1]; omega
  | ⟨2, _⟩ => show win0_1.index ⟨k, hk⟩ 2 * 1024 + 1 * w.val = w.val; rw [hi.2.2]; omega

/-! ## All 32 points together: the sums over all 1024 rows -/

/-- The 32 points' row blocks are the 1024 rows: per-point sums over 32 rows add up to the sum over every row. -/
theorem rows_of_points (g : Fin 1024 → EReal) (f : Fin cfg0.N → EReal)
    (hf : ∀ (k : ℕ) (hk : k < cfg0.N), f ⟨k, hk⟩ = ∑ q : Fin 32, g ⟨k * 32 + q.val, by
      have : cfg0.N = 32 := N_0
      have := q.isLt
      omega⟩) :
    ∑ k ∈ Finset.range 32, upto f k = ∑ r : Fin 1024, g r := by
  rw [← Fin.sum_univ_eq_sum_range (upto f) 32, sum_blocks 32 32 1024 rfl g]
  refine Finset.sum_congr rfl fun t _ => ?_
  have ht : t.val < cfg0.N := by rw [show cfg0.N = 32 from N_0]; exact t.isLt
  rw [upto, dif_pos ht, hf t.val ht]

theorem inter_all (c : Dev nD) (b : Fin 32) :
    ∑ k ∈ Finset.range 32, upto (interBlk m c b) k = interSum (logits m c) (targets m c) b :=
  rows_of_points (fun r => ∑ w : Fin 1024, Ideal.logistic (logits m c (ix4 b 0 r w)) * targets m c (ix4 b 0 r w))
    (interBlk m c b) fun k hk => by
      unfold interBlk
      refine Finset.sum_congr rfl fun q _ => Finset.sum_congr rfl fun w _ => ?_
      rw [block_x m c k hk b q w, block_t m c k hk b q w]

theorem prob_all (c : Dev nD) (b : Fin 32) :
    ∑ k ∈ Finset.range 32, upto (probBlk m c b) k = probSum (logits m c) b :=
  rows_of_points (fun r => ∑ w : Fin 1024, Ideal.logistic (logits m c (ix4 b 0 r w)))
    (probBlk m c b) fun k hk => by
      unfold probBlk
      refine Finset.sum_congr rfl fun q _ => Finset.sum_congr rfl fun w _ => ?_
      rw [block_x m c k hk b q w]

theorem targ_all (c : Dev nD) (b : Fin 32) :
    ∑ k ∈ Finset.range 32, upto (targBlk m c b) k = targSum (targets m c) b :=
  rows_of_points (fun r => ∑ w : Fin 1024, targets m c (ix4 b 0 r w))
    (targBlk m c b) fun k hk => by
      unfold targBlk
      refine Finset.sum_congr rfl fun q _ => Finset.sum_congr rfl fun w _ => ?_
      rw [block_t m c k hk b q w]

theorem bce_all (c : Dev nD) :
    ∑ k ∈ Finset.range 32, upto (bceBlk m c) k = bceSum (logits m c) (targets m c) := by
  unfold bceSum
  rw [Finset.sum_comm]
  refine rows_of_points (fun r => ∑ b : Fin 32, ∑ w : Fin 1024,
      bceTerm (logits m c (ix4 b 0 r w)) (targets m c (ix4 b 0 r w))) (bceBlk m c) fun k hk => ?_
  unfold bceBlk
  rw [Finset.sum_comm]
  refine Finset.sum_congr rfl fun q _ => Finset.sum_congr rfl fun b _ => Finset.sum_congr rfl fun w _ => ?_
  rw [block_x m c k hk b q w, block_t m c k hk b q w]

/-! ## The arrays the region leaves

Each accumulator's block is the whole of its array, at every point, and is written back after the last point only: so
the array ends holding what the last point left. -/

theorem last_lt : 31 < cfg0.N := by rw [show cfg0.N = 32 from N_0]; decide
/-- The last grid point. -/
abbrev lastPt : Fin cfg0.N := ⟨31, last_lt⟩

/-- The cross-entropy total, as the [1, 1] result array. -/
abbrev bceOut (c : Dev nD) : Buf (Elt Ideal) ((c : Thread nD τ).loc main_v2_0) := (outsAt0 m c 31 last_lt).1

theorem flushed_bce (c : Dev nD) (t : Fin cfg0.N) (hf : (cfg0.win 2).flush t = true) :
    (dats m 0 c).flushed 2 t = ((cfg0.win 2).blk t).view.read (Elt Ideal) (bceOut m c) := by
  have hN : cfg0.N = 32 := N_0
  have h31 : t.val = 31 := by have := (flush0_2 t).mp hf; have := t.isLt; omega
  obtain rfl : t = lastPt := Fin.ext h31
  show (cfg0.win 2).cut (grid0.coords lastPt) ((dats m 0 c).after 2 lastPt) = _
  rw [after0_2]
  have hz' : (fun a => win0_2.index lastPt a * main_v2_0.ty.shape.size a) = fun _ => 0 :=
    funext fun a => by fin_cases a <;> decide
  exact (Memref.read_access_unit_zero (Elt Ideal) main_v2_0 hz' (fun a => by rw [congrFun hz' a]; simp) (bceOut m c)).symm

theorem final_bce (c : Dev nD) : (dats m 0 c).arrAt 2 cfg0.N = bceOut m c :=
  (dats m 0 c).arrAt_eq_of_cover 2 (bceOut m c) (flushed_bce m c) fun i =>
    ⟨lastPt, (flush0_2 lastPt).mpr rfl, by
      show i ∈ ((View.whole main_v2_0).slice (win0_2.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index lastPt 0 * win0_2.size 0 ≤ (i 0 : Nat)
          ∧ (i 0 : Nat) < win0_2.index lastPt 0 * win0_2.size 0 + win0_2.xsize (grid0.coords lastPt) 0
        rw [show win0_2.index lastPt 0 * win0_2.size 0 = 0 from by decide +kernel,
          show win0_2.xsize (grid0.coords lastPt) 0 = 1 from by decide +kernel]
        omega
      | ⟨1, _⟩ =>
        show win0_2.index lastPt 1 * win0_2.size 1 ≤ (i 1 : Nat)
          ∧ (i 1 : Nat) < win0_2.index lastPt 1 * win0_2.size 1 + win0_2.xsize (grid0.coords lastPt) 1
        rw [show win0_2.index lastPt 1 * win0_2.size 1 = 0 from by decide +kernel,
          show win0_2.xsize (grid0.coords lastPt) 1 = 1 from by decide +kernel]
        omega⟩

/-- The per-sample intersections, as the [32, 1] result array. -/
abbrev interOut (c : Dev nD) : Buf (Elt Ideal) ((c : Thread nD τ).loc main_v2_1) := (outsAt0 m c 31 last_lt).2.1

theorem flushed_inter (c : Dev nD) (t : Fin cfg0.N) (hf : (cfg0.win 3).flush t = true) :
    (dats m 0 c).flushed 3 t = ((cfg0.win 3).blk t).view.read (Elt Ideal) (interOut m c) := by
  have hN : cfg0.N = 32 := N_0
  have h31 : t.val = 31 := by have := (flush0_3 t).mp hf; have := t.isLt; omega
  obtain rfl : t = lastPt := Fin.ext h31
  show (cfg0.win 3).cut (grid0.coords lastPt) ((dats m 0 c).after 3 lastPt) = _
  rw [after0_3]
  have hz' : (fun a => win0_3.index lastPt a * main_v2_1.ty.shape.size a) = fun _ => 0 :=
    funext fun a => by fin_cases a <;> decide
  exact (Memref.read_access_unit_zero (Elt Ideal) main_v2_1 hz' (fun a => by rw [congrFun hz' a]; simp) (interOut m c)).symm

theorem final_inter (c : Dev nD) : (dats m 0 c).arrAt 3 cfg0.N = interOut m c :=
  (dats m 0 c).arrAt_eq_of_cover 3 (interOut m c) (flushed_inter m c) fun i =>
    ⟨lastPt, (flush0_3 lastPt).mpr rfl, by
      show i ∈ ((View.whole main_v2_1).slice (win0_3.rect lastPt)).set
      rw [View.set_slice_whole, Rect.mem_set_unit]
      intro a
      have h0 : (i 0 : Nat) < 32 := (i 0).isLt
      have h1 : (i 1 : Nat) < 1 := (i 1).isLt
      match a with
      | ⟨0, _⟩ =>
        show win0_3.index lastPt 0 * win0_3.size 0 ≤ (i 0 : Nat)
          ∧ (i 0 : Nat) < win0_3.index lastPt 0 * win0_3.size 0 + win0_3.xsize (grid0.coords lastPt) 0
        rw [show win0_3.index lastPt 0 * win0_3.size 0 = 0 from by decide +kernel,
          show win0_3.xsize (grid0.coords lastPt) 0 = 32 from by decide +kernel]
        omega
      | ⟨1, _⟩ =>
        show win0_3.index lastPt 1 * win0_3.size 1 ≤ (i 1 : Nat)
          ∧ (i 1 : Nat) < win0_3.index lastPt 1 * win0_3.size 1 + win0_3.xsize (grid0.coords lastPt) 1
        rw [show win0_3.index lastPt 1 * win0_3.size 1 = 0 from by decide +kernel,
          show win0_3.xsize (grid0.coords lastPt) 1 = 1 from by decide +kernel]
        omega⟩

/-- The per-sample probability sums, as the [32, 1] result array. -/
abbrev probOut (c : Dev nD) : Buf (Elt Ideal) ((c : Thread nD τ).loc main_v2_2) := (outsAt0 m c 31 last_lt).2.2.1

theorem flushed_prob (c : Dev nD) (t : Fin cfg0.N) (hf : (cfg0.win 4).flush t = true) :
    (dats m 0 c).flushed 4 t = ((cfg0.win 4).blk t).view.read (Elt Ideal) (probOut m c) := by
  have hN : cfg0.N = 32 := N_0
  have h31 : t.val = 31 := by have := (flush0_4 t).mp hf; have := t.isLt; omega
  obtain rfl : t = lastPt := Fin.ext h31
  show (cfg0.win 4).cut (grid0.coords lastPt) ((dats m 0 c).after 4 lastPt) = _
  rw [after0_4]
  have hz' : (fun a => win0_4.index lastPt a * main_v2_2.ty.shape.size a) = fun _ => 0 :=
    funext fun a => by fin_cases a <;> decide
  exact (Memref.read_access_unit_zero (Elt Ideal) main_v2_2 hz' (fun a => by rw [congrFun hz' a]; simp) (probOut m c)).symm

theorem final_prob (c : Dev nD) : (dats m 0 c).arrAt 4 cfg0.N = probOut m c :=
  (dats m 0 c).arrAt_eq_of_cover 4 (probOut m c) (flushed_prob m c) fun i =>
    ⟨lastPt, (flush0_4 lastPt).mpr rfl, by
      show i ∈ ((View.whole main_v2_2).slice (win0_4.rect lastPt)).set
      rw [View.set_slice_whole, Rect.mem_set_unit]
      intro a
      have h0 : (i 0 : Nat) < 32 := (i 0).isLt
      have h1 : (i 1 : Nat) < 1 := (i 1).isLt
      match a with
      | ⟨0, _⟩ =>
        show win0_4.index lastPt 0 * win0_4.size 0 ≤ (i 0 : Nat)
          ∧ (i 0 : Nat) < win0_4.index lastPt 0 * win0_4.size 0 + win0_4.xsize (grid0.coords lastPt) 0
        rw [show win0_4.index lastPt 0 * win0_4.size 0 = 0 from by decide +kernel,
          show win0_4.xsize (grid0.coords lastPt) 0 = 32 from by decide +kernel]
        omega
      | ⟨1, _⟩ =>
        show win0_4.index lastPt 1 * win0_4.size 1 ≤ (i 1 : Nat)
          ∧ (i 1 : Nat) < win0_4.index lastPt 1 * win0_4.size 1 + win0_4.xsize (grid0.coords lastPt) 1
        rw [show win0_4.index lastPt 1 * win0_4.size 1 = 0 from by decide +kernel,
          show win0_4.xsize (grid0.coords lastPt) 1 = 1 from by decide +kernel]
        omega⟩

/-- The per-sample target sums, as the [32, 1] result array. -/
abbrev targOut (c : Dev nD) : Buf (Elt Ideal) ((c : Thread nD τ).loc main_v2_3) := (outsAt0 m c 31 last_lt).2.2.2

theorem flushed_targ (c : Dev nD) (t : Fin cfg0.N) (hf : (cfg0.win 5).flush t = true) :
    (dats m 0 c).flushed 5 t = ((cfg0.win 5).blk t).view.read (Elt Ideal) (targOut m c) := by
  have hN : cfg0.N = 32 := N_0
  have h31 : t.val = 31 := by have := (flush0_5 t).mp hf; have := t.isLt; omega
  obtain rfl : t = lastPt := Fin.ext h31
  show (cfg0.win 5).cut (grid0.coords lastPt) ((dats m 0 c).after 5 lastPt) = _
  rw [after0_5]
  have hz' : (fun a => win0_5.index lastPt a * main_v2_3.ty.shape.size a) = fun _ => 0 :=
    funext fun a => by fin_cases a <;> decide
  exact (Memref.read_access_unit_zero (Elt Ideal) main_v2_3 hz' (fun a => by rw [congrFun hz' a]; simp) (targOut m c)).symm

theorem final_targ (c : Dev nD) : (dats m 0 c).arrAt 5 cfg0.N = targOut m c :=
  (dats m 0 c).arrAt_eq_of_cover 5 (targOut m c) (flushed_targ m c) fun i =>
    ⟨lastPt, (flush0_5 lastPt).mpr rfl, by
      show i ∈ ((View.whole main_v2_3).slice (win0_5.rect lastPt)).set
      rw [View.set_slice_whole, Rect.mem_set_unit]
      intro a
      have h0 : (i 0 : Nat) < 32 := (i 0).isLt
      have h1 : (i 1 : Nat) < 1 := (i 1).isLt
      match a with
      | ⟨0, _⟩ =>
        show win0_5.index lastPt 0 * win0_5.size 0 ≤ (i 0 : Nat)
          ∧ (i 0 : Nat) < win0_5.index lastPt 0 * win0_5.size 0 + win0_5.xsize (grid0.coords lastPt) 0
        rw [show win0_5.index lastPt 0 * win0_5.size 0 = 0 from by decide +kernel,
          show win0_5.xsize (grid0.coords lastPt) 0 = 32 from by decide +kernel]
        omega
      | ⟨1, _⟩ =>
        show win0_5.index lastPt 1 * win0_5.size 1 ≤ (i 1 : Nat)
          ∧ (i 1 : Nat) < win0_5.index lastPt 1 * win0_5.size 1 + win0_5.xsize (grid0.coords lastPt) 1
        rw [show win0_5.index lastPt 1 * win0_5.size 1 = 0 from by decide +kernel,
          show win0_5.xsize (grid0.coords lastPt) 1 = 1 from by decide +kernel]
        omega⟩

/-! ## What the result arrays hold, index by index -/

theorem bceOut_eq (c : Dev nD) : bceOut m c (ix2 0 0) = bceSum (logits m c) (targets m c) :=
  (bce_running m c 31 last_lt).trans (bce_all m c)

theorem interOut_eq (c : Dev nD) (b : Fin 32) : interOut m c (ix2 b 0) = interSum (logits m c) (targets m c) b :=
  (inter_running m c b 31 last_lt).trans (inter_all m c b)

theorem probOut_eq (c : Dev nD) (b : Fin 32) : probOut m c (ix2 b 0) = probSum (logits m c) b :=
  (prob_running m c b 31 last_lt).trans (prob_all m c b)

theorem targOut_eq (c : Dev nD) (b : Fin 32) : targOut m c (ix2 b 0) = targSum (targets m c) b :=
  (targ_running m c b 31 last_lt).trans (targ_all m c b)

end Cert.KernelSide

end
-- ==== Proof.KernelValue.lean ====
/-
  What the kernel's program returns: the loss of Proof/LossSpec.lean.

  After the region the program reads the four result arrays — the cross-entropy total as a scalar, the three per-sample
  sums as length-32 vectors — and combines them: total / 2^25 + (1 − (Σ_b dice_b) / 32) + 0, with dice_b the quotient
  of Proof/LossSpec.lean. The arrays hold the whole-array sums (Proof/Accumulate.lean), the trailing zero adds nothing,
  and the sum over the 32 samples starts from a zero that adds nothing either.
-/
import proofs.«148591_j77292231459116_1_alg».proof.Proof.Accumulate
import Idealize.ShloMosaic.Lib.Pipeline.FrameSuffix

noncomputable section

open scoped BigOperators

namespace Cert.KernelSide

open Idealize.ShloMosaic Idealize.ShloMosaic.TcCoe Idealize.ShloMosaic.ValueIdx Idealize.SL.Sem
open Idealize.ShloMosaic.Pipeline (Dat)
open Cert.KernelIdeal Cert.KernelIdeal.Gen Cert.Loss

/-! ## The lines after the region, as one function of the four result arrays -/

/-- A [1, 1] array viewed as a scalar reads its one element. -/
theorem scalar_cast (A : FVec Ideal S1x1 .f32) (i : S_.Idx) : shapeCast S_ A shapeCasts_S1x1_S_ i = A (ix2 0 0) :=
  shapeCast_apply A shapeCasts_S1x1_S_ i (ix2 0 0) (by
    have h0 : (S_.rowMajor i).val = 0 := Shape.rowMajorPi_zero _ i
    rw [Shape.rowMajor_val_two, h0]
    rfl)

/-- A [32, 1] column viewed as a length-32 vector: b reads (b, 0). -/
theorem column_cast (A : FVec Ideal S32x1 .f32) (b : Fin 32) :
    shapeCast S32 A shapeCasts_S32x1_S32 (ix1 b) = A (ix2 b 0) :=
  shapeCast_apply A shapeCasts_S32x1_S32 (ix1 b) (ix2 b 0) (by
    rw [Shape.rowMajor_val_two, Shape.rowMajor_val_one]
    show b.val * 1 + 0 = b.val
    omega)

/-- What the program computes from the cross-entropy total `A` and the per-sample sums `B` (σ(x)·t), `C` (σ(x)),
    `D` (t): A / 2^25 + (1 − (0 + Σ_b (2·B_b + ε) / ((C_b + D_b) + ε)) / 32) + 0. -/
def finish (A : FVec Ideal S1x1 .f32) (B C D : FVec Ideal S32x1 .f32) : FVec Ideal S_ .f32 :=
  addf
    (addf
      (Host.divf (F := Ideal) (fun i => shapeCast S_ A shapeCasts_S1x1_S_ i) (constant (F := Ideal) S_ .f32 0x4C000000#32))
      (subf (constant (F := Ideal) S_ .f32 0x3F800000#32)
        (Host.divf (F := Ideal)
          (Host.reduceAdd (F := Ideal)
            (Host.divf (F := Ideal)
              (addf
                (mulf (broadcastInDim S32 ![] bcast_S_S32 (constant (F := Ideal) S_ .f32 0x40000000#32))
                  (fun i => shapeCast S32 B shapeCasts_S32x1_S32 i))
                (broadcastInDim S32 ![] bcast_S_S32 (constant (F := Ideal) S_ .f32 0x3727C5AC#32)))
              (addf
                (addf (fun i => shapeCast S32 C shapeCasts_S32x1_S32 i) (fun i => shapeCast S32 D shapeCasts_S32x1_S32 i))
                (broadcastInDim S32 ![] bcast_S_S32 (constant (F := Ideal) S_ .f32 0x3727C5AC#32))))
            (constant (F := Ideal) S_ .f32 0x00000000#32) reducesTo_S32_S_d0 h_S_)
          (constant (F := Ideal) S_ .f32 0x42000000#32))))
    (constant (F := Ideal) S_ .f32 0x00000000#32)

/-- Read at its one index, with the zeros dropped and the reshapes read through. -/
theorem finish_apply (A : FVec Ideal S1x1 .f32) (B C D : FVec Ideal S32x1 .f32) (i : S_.Idx) :
    finish A B C D i
      = Ideal.div (A (ix2 0 0)) (Ideal.ofBits .f32 0x4C000000#32)
        + (Ideal.ofBits .f32 0x3F800000#32
          - Ideal.div (∑ b : Fin 32, Ideal.div
              (Ideal.ofBits .f32 0x40000000#32 * B (ix2 b 0) + Ideal.ofBits .f32 0x3727C5AC#32)
              ((C (ix2 b 0) + D (ix2 b 0)) + Ideal.ofBits .f32 0x3727C5AC#32))
            (Ideal.ofBits .f32 0x42000000#32)) := by
  show (Ideal.div (shapeCast S_ A shapeCasts_S1x1_S_ i) (Ideal.ofBits .f32 0x4C000000#32)
        + (Ideal.ofBits .f32 0x3F800000#32
          - Ideal.div (Ideal.hostReduceAdd reducesTo_S32_S_d0
              (fun j => Ideal.div
                (Ideal.ofBits .f32 0x40000000#32 * shapeCast S32 B shapeCasts_S32x1_S32 j + Ideal.ofBits .f32 0x3727C5AC#32)
                ((shapeCast S32 C shapeCasts_S32x1_S32 j + shapeCast S32 D shapeCasts_S32x1_S32 j)
                  + Ideal.ofBits .f32 0x3727C5AC#32))
              (Ideal.ofBits .f32 0x00000000#32) i) (Ideal.ofBits .f32 0x42000000#32)))
      + Ideal.ofBits .f32 0x00000000#32 = _
  rw [Ideal.hostReduceAdd_total reducesTo_S32_S_d0 (fun b => b.elim0), Ideal.ofBits_zero_f32, add_zero, zero_add,
    sum_idx1, scalar_cast]
  refine congrArg (fun s => Ideal.div (A (ix2 0 0)) (Ideal.ofBits .f32 0x4C000000#32)
    + (Ideal.ofBits .f32 0x3F800000#32 - Ideal.div s (Ideal.ofBits .f32 0x42000000#32))) ?_
  exact Finset.sum_congr rfl fun b _ => by rw [column_cast, column_cast, column_cast]

variable (m : (ℓ : Loc nD τ sig) → Buf (Elt Ideal) ℓ)

/-! ## The region's arrays, as the lines after it find them -/

theorem arr_bce (c : Dev nD) :
    Pipeline.withArrays (cfgs 0).spec c (V0 m c) (fun w => (dats m 0 c).arrAt w (cfgs 0).N) (Proc.devRef .tc main_v2_0)
      = bceOut m c :=
  (Pipeline.withArrays_arr spec0 launch0.win.arr_inj c _ _ 2).trans (final_bce m c)

theorem arr_inter (c : Dev nD) :
    Pipeline.withArrays (cfgs 0).spec c (V0 m c) (fun w => (dats m 0 c).arrAt w (cfgs 0).N) (Proc.devRef .tc main_v2_1)
      = interOut m c :=
  (Pipeline.withArrays_arr spec0 launch0.win.arr_inj c _ _ 3).trans (final_inter m c)

theorem arr_prob (c : Dev nD) :
    Pipeline.withArrays (cfgs 0).spec c (V0 m c) (fun w => (dats m 0 c).arrAt w (cfgs 0).N) (Proc.devRef .tc main_v2_2)
      = probOut m c :=
  (Pipeline.withArrays_arr spec0 launch0.win.arr_inj c _ _ 4).trans (final_prob m c)

theorem arr_targ (c : Dev nD) :
    Pipeline.withArrays (cfgs 0).spec c (V0 m c) (fun w => (dats m 0 c).arrAt w (cfgs 0).N) (Proc.devRef .tc main_v2_3)
      = targOut m c :=
  (Pipeline.withArrays_arr spec0 launch0.win.arr_inj c _ _ 5).trans (final_targ m c)

set_option maxHeartbeats 1000000 in
/-- The lines after the region compute `finish` of the four arrays the region leaves. -/
theorem tail_term (c : Dev nD) :
    Pipeline.afterTail₀ cfgs (dats m) 0 (V0 m) [hostOps1] c main_v20
      = finish
          (Pipeline.withArrays (cfgs 0).spec c (V0 m c) (fun w => (dats m 0 c).arrAt w (cfgs 0).N) (Proc.devRef .tc main_v2_0))
          (Pipeline.withArrays (cfgs 0).spec c (V0 m c) (fun w => (dats m 0 c).arrAt w (cfgs 0).N) (Proc.devRef .tc main_v2_1))
          (Pipeline.withArrays (cfgs 0).spec c (V0 m c) (fun w => (dats m 0 c).arrAt w (cfgs 0).N) (Proc.devRef .tc main_v2_2))
          (Pipeline.withArrays (cfgs 0).spec c (V0 m c) (fun w => (dats m 0 c).arrAt w (cfgs 0).N) (Proc.devRef .tc main_v2_3)) := by
  unfold Pipeline.afterTail₀
  show StableHlo.after hostOps1 _ (Proc.devRef .tc main_v20) = _
  after_results_simp
  rfl

set_option maxHeartbeats 1000000 in
/-- The program's result after the lines that follow the region: the loss of the two argument arrays. -/
theorem tail_value (c : Dev nD) :
    Pipeline.afterTail₀ cfgs (dats m) 0 (V0 m) [hostOps1] c main_v20 = fun _ => loss (logits m c) (targets m c) := by
  rw [tail_term m c, arr_bce m c, arr_inter m c, arr_prob m c, arr_targ m c]
  funext i
  rw [finish_apply, bceOut_eq]
  simp only [interOut_eq, probOut_eq, targOut_eq]
  rfl

/-- The kernel's run: every weakly fair execution ends with the loss of the argument arrays as the result and the
    arguments as they were. -/
theorem run (ρ : Dev nD → PrngReg) :
    θ_run defs (onTc (τ := τ) (main (F := Ideal))) ⟨m, fun _ => 0, ρ⟩ fun r => ∀ c : Dev nD,
      r.2.mem ((c : Thread nD τ).loc main_v20) = (fun _ => loss (logits m c) (targets m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v20 (Pipeline.mem_restRefs_of main_v20 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelSide

end
-- ==== Proof.lean ====
/-
  The kernel and its reference compute one function of the logits x and targets t, shape [32, 1, 1024, 1024], over the
  extended reals:

    loss(x, t) = (Σ bce(x, t)) / 2^25 + (1 − (Σ_b dice_b(x, t)) / 32)        (Proof/LossSpec.lean)

  The kernel walks the 1024 rows in 32 blocks of 32 rows and keeps four running sums (the cross-entropy total and, per
  sample, Σ σ(x)·t, Σ σ(x), Σ t), then finishes the formula from them (Proof/BodyPieces.lean, Proof/BlockSums.lean,
  Proof/Accumulate.lean, Proof/KernelValue.lean). The reference sums whole arrays and flattened samples at once, and
  adds a third term that is a mean of σ(x)·0, which is zero (Proof/Reference.lean). The two differ only in the order
  and grouping of finite sums, which the extended reals' addition does not see; no finiteness of the inputs is used.
  The ideal pass rewrote nothing in the kernel, so there is nothing to preserve.
-/
import proofs.«148591_j77292231459116_1_alg».proof.Defs
import proofs.«148591_j77292231459116_1_alg».proof.Proof.Gen.Kernel
import proofs.«148591_j77292231459116_1_alg».proof.Proof.Gen.Kernel.Frame
import proofs.«148591_j77292231459116_1_alg».proof.Proof.Gen.KernelIdeal
import proofs.«148591_j77292231459116_1_alg».proof.Proof.Gen.KernelIdeal.Frame
import proofs.«148591_j77292231459116_1_alg».proof.Proof.Gen.ReferenceIdeal
import proofs.«148591_j77292231459116_1_alg».proof.Proof.Gen.ReferenceIdeal.Run
import proofs.«148591_j77292231459116_1_alg».proof.Proof.Gen.ReferenceIdeal.Read
import proofs.«148591_j77292231459116_1_alg».proof.Proof.Gen.Pre_finite_inputs
import proofs.«148591_j77292231459116_1_alg».proof.Proof.Reference
import proofs.«148591_j77292231459116_1_alg».proof.Proof.KernelValue
import Idealize.ShloMosaic.Adequacy
import Idealize.ShloMosaic.Init

noncomputable section

namespace Cert.Proof

open Idealize.ShloMosaic Idealize.SL.Sem

/-- The word-level kernel terminates without a fault and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten, so nothing is owed. -/
theorem preserves : Cert.preserves_Kernel_KernelIdeal := trivial

/-- Both programs end with the loss of the argument arrays: the kernel by its run, the reference by its run read
    operation by operation, from memories that agree on the arguments. -/
theorem algebraic : Cert.algebraic_KernelIdeal_ReferenceIdeal := by
  intro m ρ m' ρ' _ hagree
  refine ⟨fun c _ => Cert.Loss.loss (Cert.KernelSide.logits m c) (Cert.KernelSide.targets m c), Cert.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.RefSide.value_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
